-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 1 → Bool
  | ⟨0, _⟩ => true
  | _ => false

abbrev sig : RefSig :=
  ofTc nBuf bufTy 0 1 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

abbrev grid0 : Pipeline.Grid := .none

class Facts₀ : Prop where
  hcc0_scratch0 : 0 + S_.numel ≤ 1

variable [Facts₀]

abbrev cc0_scratch0 : DmaSems sig S_ := SemArray.consecutive 0 S_ hcc0_scratch0

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .i32⟩
  | .hbm, ⟨3, _⟩ => ⟨S_, .i32⟩
  | .hbm, ⟨4, _⟩ => ⟨S4096x4096, .i32⟩
  | .hbm, ⟨5, _⟩ => ⟨S4096x4096, .i32⟩
  | .hbm, ⟨6, _⟩ => ⟨S4096x4096, .i1⟩
  | .hbm, ⟨7, _⟩ => ⟨S4096x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.WordCopyStep.lean ====
/-
  The copy kernel's body, run once. The body starts ONE transfer that carries the whole argument array (8192 rows
  of 4096 numbers) onto the whole result array, counted on the kernel's single completion cell, and then waits on
  that cell for exactly that transfer. Nothing is loaded, computed or stored.

  `copy_step`: from the argument array held whole at contents `x`, the result array held whole at any contents, the
  cell at zero and the core owing nothing, the body runs to the end without a fault and leaves the argument array
  at `x`, the result array at `x` as well, and the cell at zero again. What lands in the result is what the
  transfer's source reads, the whole of `x`; written over the whole of the result, unmasked, it replaces every
  entry, so none of the result's earlier contents survives.
-/
import proofs.«114075_j61933428409434_2_alg».proof.Proof.Gen.Kernel
import proofs.«114075_j61933428409434_2_alg».proof.Proof.Gen.Kernel.Skeleton
import proofs.«114075_j61933428409434_2_alg».proof.Proof.Gen.Kernel.Launch
import Idealize.ShloMosaic.Lib.Transfers
import Idealize.ShloMosaic.Lib.Writes
import Idealize.ShloMosaic.Lib.Pipeline.FrameBody
import Idealize.ShloMosaic.Lib.Tactic

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state the run is carried out in: the staging cells' rounds beside the counters a transfer in flight
    draws its two tokens from. -/
abbrev UC : Type := UR sig nD τ × Counters
local notation "𝕄" => MT nD τ sig Unit (Elt F) ℕ UC ℕ

/-- The contents type of a memory reference's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's one completion cell. -/
abbrev osem : Fin 1 → SemLoc sig := fun _ => .dma 0

/-- The body as the launch calls it at the grid's only point: on the whole argument array, the whole result array
    and the cell. -/
abbrev body : Prog (TpuEff nD τ sig (Elt F) Λ₀ .tc) PUnit :=
  cc0__copy_kernel (Memref.whole main_arg0) (Memref.isWhole_whole _) (Memref.whole main_v0) (Memref.isWhole_whole _) cc0_scratch0

/-- One run of the body: the result array ends holding the argument array's contents, entry for entry; the
    argument array, the cell and what the core owes are as before, the wait recorded. -/
theorem copy_step (c : Dev nD) (x : Bf (F := F) c (Memref.whole main_arg0)) (old : Bf (F := F) c (Memref.whole main_v0))
    (W : Waits sig Unit) (Q : PUnit → sProp 𝕄) :
    iprop(pt c (Memref.whole main_arg0) x ∗ pt c (Memref.whole main_v0) old
      ∗ semVal ((c : Thread nD τ), SemLoc.dma (0 : DmaSem sig)) 0 ∗ owes (c : Thread nD τ) 0 W
      ∗ (iprop(pt c (Memref.whole main_arg0) x ∗ pt c (Memref.whole main_v0) (x : Bf (F := F) c (Memref.whole main_v0))
          ∗ semVal ((c : Thread nD τ), SemLoc.dma (0 : DmaSem sig)) 0
          ∗ owes (c : Thread nD τ) 0 (insert (SemLoc.dma (0 : DmaSem sig), default) W)) -∗ Q ⟨⟩))
      ⊢ wp frame (wpE (defs₀ (F := F)) Variants.none c none) Set.univ (body (F := F)) Q := by
  iintro ⟨Hx, Hv, Hs, HO, Hk⟩
  sl_exec! (disch := decide)
  sl_step
  iapply Hk
  isplitl [Hx]; · iexact Hx
  isplitl [Hv]
  · -- the whole result written unmasked with the whole of `x` is `x`
    rw [View.write_whole_univ]
    iexact Hv
  isplitl [Hs]; · iexact Hs
  iexact HO

end Cert.Kernel.Copy

end
-- ==== Proof.WordCopyRun.lean ====
/-
  The copy kernel's whole run. The program is the kernel launch alone, on a grid of one point and with NO staged
  window: both arrays stay where they are and the body moves the data by its own transfer (the step module). So
  neither array is the launch's to account for; both are handed to the body's invariant and taken back from it:

    before the point — the argument array at its launch contents `x`, the result array at its launch contents,
                       the completion cell at zero;
    after the point  — the argument array at `x`, the result array at `x`, the cell at zero.

  `run_main`: for any float values, from any memory with zero counters, every weakly fair execution of the
  program terminates without a fault, and in every final state the result array holds the argument array's launch
  contents while the argument array is unchanged (`final_result`, `final_argument`).
-/
import proofs.«114075_j61933428409434_2_alg».proof.Proof.WordCopyStep
import Idealize.ShloMosaic.Lib.Pipeline.Routed
import proofs.«114075_j61933428409434_2_alg».proof.Proof.Gen.Kernel.Frame
import proofs.«114075_j61933428409434_2_alg».proof.Proof.Gen.Kernel.Points

noncomputable section

namespace Cert.Kernel.Copy

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed)

variable {F : FTy → Type} [FloatOps F]

local notation "𝕄" => MT nD τ sig Unit (Elt F) ℕ UC ℕ

variable (m : (ℓ : Loc nD τ sig) → Buf (Elt F) ℓ) (ρ : Dev nD → PrngReg)

/-! ## What the two arrays hold, before and after -/

/-- The arrays the body's invariant carries: the transfer's source and its target. -/
abbrev moved : Finset (Ref sig .tc) := {main_arg0, main_v0}

/-- The contents after the run: as launched, except that the result array holds the argument array's contents. -/
def Y (c : Dev nD) : (b : Ref sig .tc) → Buf (Elt F) ((c : Thread nD τ).loc b) :=
  Function.update (V m c) main_v0 (V m c main_arg0 : Buf (Elt F) ((c : Thread nD τ).loc main_v0))

theorem Y_result (c : Dev nD) : Y m c main_v0 = (V m c main_arg0 : Buf (Elt F) ((c : Thread nD τ).loc main_v0)) :=
  Function.update_self ..

theorem Y_argument (c : Dev nD) : Y m c main_arg0 = V m c main_arg0 :=
  Function.update_of_ne (by decide) ..

/-! ## The invariant's two ends, written out -/

omit [FloatOps F] in
/-- The kernel's one cell at zero. -/
theorem ownSems0_eq (c : Dev nD) :
    (Pipeline.ownSems0 (Ix := Unit) (Name := ℕ) (U := UC) (Lvl := ℕ) (Val := Elt F) (τ := τ) osem c : sProp 𝕄)
      = semVal ((c : Thread nD τ), SemLoc.dma (0 : DmaSem sig)) 0 :=
  Pipeline.ownSems0_eq_of_list c osem [0] (by decide) (by decide)

/-- An end of the invariant at contents `W`: the two arrays whole at `W`, the cell at zero, no scratch buffer, the
    generator register at some state. -/
theorem ends_eq (c : Dev nD) (W : (b : Ref sig .tc) → Buf (Elt F) ((c : Thread nD τ).loc b)) :
    (Ends cfg0.spec osem moved c W : sProp 𝕄)
      = iprop((pt c (Memref.whole main_arg0) (W main_arg0) ∗ pt c (Memref.whole main_v0) (W main_v0))
          ∗ semVal ((c : Thread nD τ), SemLoc.dma (0 : DmaSem sig)) 0 ∗ emp ∗ ∃ r, prngReg c r) := by
  unfold Ends routed
  rw [BI.bigSep_eq_bigSepL_of_eq [main_arg0, main_v0] (by decide) (by decide), ownSems0_eq, scopedRest0_eq]
  rfl

/-! ## The proof data and the body at the point -/

/-- No window: nothing staged. The invariant is its entry end before the point and its exit end after it. -/
def dats (_ : Fin 1) (c : Dev nD) : Dat τ (Elt F) Unit ℕ UC ℕ cfg0 c where
  A w := w.elim0
  after w := w.elim0
  Φ t := match t with
    | ⟨0, _⟩ => Ends cfg0.spec osem moved c (V m c)
    | ⟨_ + 1, _⟩ => Ends cfg0.spec osem moved c (Y m c)
  q _ := fullShare
  owed _ := 0

abbrev 𝒱₀ : Variants := Variants.none

/-- What the core owes as the launch wants it back, from what the body's run returns: nothing was taken on. -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The body at the point: the entry end taken apart, the step run, its post put together as the exit end. (The
    trailing `emp` on either side is the product over the windows' staging buffers: there is no window.) -/
theorem sound_body (c : Dev nD) :
    iprop((dats m 0 c).Φ t0_0.castSucc ∗ (dats m 0 c).owesAt () t0_0.castSucc ∗ emp)
      ⊢ wp frame (wpE (defs₀ (F := F)) Variants.none c none) Set.univ (body (F := F))
          (fun _ => iprop((dats m 0 c).Φ t0_0.succ ∗ (dats m 0 c).owesAt () t0_0.succ ∗ emp)) := by
  rw [show (dats m 0 c).Φ t0_0.castSucc = Ends cfg0.spec osem moved c (V m c) from rfl,
    show (dats m 0 c).Φ t0_0.succ = Ends cfg0.spec osem moved c (Y m c) from rfl, ends_eq, ends_eq, Y_result, Y_argument]
  unfold Dat.owesAt Pipeline.owesWithin
  rw [show (dats m 0 c).owed t0_0.castSucc = 0 from rfl]
  iintro ⟨⟨⟨Hx, Hv⟩, Hs, -, Hp⟩, ⟨%W, %hW, HO⟩, -⟩
  iapply (copy_step c (V m c main_arg0) (V m c main_v0) W)
  isplitl [Hx]; · iexact Hx
  isplitl [Hv]; · iexact Hv
  isplitl [Hs]; · iexact Hs
  isplitl [HO]; · iexact HO
  iintro ⟨Hx, Hv, Hs, HO⟩
  isplitl [Hx Hv Hs Hp]
  · isplitl [Hx Hv]
    · isplitl [Hx] <;> iassumption
    isplitl [Hs]; · iexact Hs
    isplitr; · iempintro
    iexact Hp
  isplitl [HO]; · iapply (owesAt_intro m c); iexact HO
  iempintro

/-- The launch's obligation for the body, at the grid's one point. There is no window, so the two products over
    the windows' staging buffers are empty and the obligation is the step's. -/
theorem body_obligation (c : Dev nD) : BodyObligation (dats (F := F) m 0 c) (defs₀ (F := F)) 𝒱₀ () Set.univ := fun t => by
  obtain rfl := fin_N0 t
  have hw : (Finset.univ : Finset (Fin cfg0.W)) = ∅ := rfl
  rw [hw, BI.bigSep_empty, BI.bigSep_empty]
  exact sound_body m c

/-! ## The launch -/

/-- The kernel's own cell is scoped to the kernel, and it is no staging cell (there is none). -/
theorem ownSemFacts : Pipeline.OwnSemFacts cfg0.spec osem := by decide

/-- At the compiled mesh, for any float values, from any memory with zero counters: every weakly fair execution of
    the program terminates, and every final state has the two arrays at `Y`. -/
theorem run_main : θ_run defs (onTc (τ := τ) (main (F := F))) (s₀ m ρ) (RoutedPost cfgs (dats m) 0 moved (V m) (Y m)) :=
  Pipeline.θ_run_frame_routed cfgs (dats m) 0 launch0 ownSemFacts defs₀ 𝒱₀ m ρ main
    (hbody := fun c => (body_obligation m c).loose) (hshare := fun _ w => w.elim0)
    (howed := fun _ _ => rfl) (V := V m)
    (hmain := Pipeline.hmain_region cfgs 0 defs₀ 𝒱₀ m main fun c => (main_chain c).trans rfl)
    (hA := fun _ w => w.elim0) (R := moved) (hR := by decide) (Y := Y m) (hin := fun _ => .rfl) (hout := fun _ => .rfl)

/-! ## The final contents, read off the post -/

variable {m ρ}

/-- After the run the result array holds what the argument array held at the launch. -/
theorem final_result {r : PUnit × MemSt nD τ sig (Elt F)} (h : RoutedPost cfgs (dats m) 0 moved (V m) (Y m) r) (c : Dev nD) :
    r.2.mem ((c : Thread nD τ).loc main_v0) = (m ((c : Thread nD τ).loc main_arg0) : Buf (Elt F) ((c : Thread nD τ).loc main_v0)) :=
  ((h c).2.1 main_v0 (by decide)).trans (Y_result m c)

/-- After the run the argument array is as launched. -/
theorem final_argument {r : PUnit × MemSt nD τ sig (Elt F)} (h : RoutedPost cfgs (dats m) 0 moved (V m) (Y m) r) (c : Dev nD) :
    r.2.mem ((c : Thread nD τ).loc main_arg0) = m ((c : Thread nD τ).loc main_arg0) :=
  ((h c).2.1 main_arg0 (by decide)).trans (Y_argument m c)

end Cert.Kernel.Copy

end
-- ==== Proof.IdealCopyStep.lean ====
/-
  The copy kernel's body, run once. The body starts ONE transfer that carries the whole argument array (8192 rows
  of 4096 numbers) onto the whole result array, counted on the kernel's single completion cell, and then waits on
  that cell for exactly that transfer. Nothing is loaded, computed or stored.

  `copy_step`: from the argument array held whole at contents `x`, the result array held whole at any contents, the
  cell at zero and the core owing nothing, the body runs to the end without a fault and leaves the argument array
  at `x`, the result array at `x` as well, and the cell at zero again. What lands in the result is what the
  transfer's source reads, the whole of `x`; written over the whole of the result, unmasked, it replaces every
  entry, so none of the result's earlier contents survives.
-/
import proofs.«114075_j61933428409434_2_alg».proof.Proof.Gen.KernelIdeal
import proofs.«114075_j61933428409434_2_alg».proof.Proof.Gen.KernelIdeal.Skeleton
import proofs.«114075_j61933428409434_2_alg».proof.Proof.Gen.KernelIdeal.Launch
import Idealize.ShloMosaic.Lib.Transfers
import Idealize.ShloMosaic.Lib.Writes
import Idealize.ShloMosaic.Lib.Pipeline.FrameBody
import Idealize.ShloMosaic.Lib.Tactic

noncomputable section

namespace Cert.KernelIdeal.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state the run is carried out in: the staging cells' rounds beside the counters a transfer in flight
    draws its two tokens from. -/
abbrev UC : Type := UR sig nD τ × Counters
local notation "𝕄" => MT nD τ sig Unit (Elt F) ℕ UC ℕ

/-- The contents type of a memory reference's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's one completion cell. -/
abbrev osem : Fin 1 → SemLoc sig := fun _ => .dma 0

/-- The body as the launch calls it at the grid's only point: on the whole argument array, the whole result array
    and the cell. -/
abbrev body : Prog (TpuEff nD τ sig (Elt F) Λ₀ .tc) PUnit :=
  cc0__copy_kernel (Memref.whole main_arg0) (Memref.isWhole_whole _) (Memref.whole main_v0) (Memref.isWhole_whole _) cc0_scratch0

/-- One run of the body: the result array ends holding the argument array's contents, entry for entry; the
    argument array, the cell and what the core owes are as before, the wait recorded. -/
theorem copy_step (c : Dev nD) (x : Bf (F := F) c (Memref.whole main_arg0)) (old : Bf (F := F) c (Memref.whole main_v0))
    (W : Waits sig Unit) (Q : PUnit → sProp 𝕄) :
    iprop(pt c (Memref.whole main_arg0) x ∗ pt c (Memref.whole main_v0) old
      ∗ semVal ((c : Thread nD τ), SemLoc.dma (0 : DmaSem sig)) 0 ∗ owes (c : Thread nD τ) 0 W
      ∗ (iprop(pt c (Memref.whole main_arg0) x ∗ pt c (Memref.whole main_v0) (x : Bf (F := F) c (Memref.whole main_v0))
          ∗ semVal ((c : Thread nD τ), SemLoc.dma (0 : DmaSem sig)) 0
          ∗ owes (c : Thread nD τ) 0 (insert (SemLoc.dma (0 : DmaSem sig), default) W)) -∗ Q ⟨⟩))
      ⊢ wp frame (wpE (defs₀ (F := F)) Variants.none c none) Set.univ (body (F := F)) Q := by
  iintro ⟨Hx, Hv, Hs, HO, Hk⟩
  sl_exec! (disch := decide)
  sl_step
  iapply Hk
  isplitl [Hx]; · iexact Hx
  isplitl [Hv]
  · -- the whole result written unmasked with the whole of `x` is `x`
    rw [View.write_whole_univ]
    iexact Hv
  isplitl [Hs]; · iexact Hs
  iexact HO

end Cert.KernelIdeal.Copy

end
-- ==== Proof.IdealCopyRun.lean ====
/-
  The copy kernel's whole run. The program is the kernel launch alone, on a grid of one point and with NO staged
  window: both arrays stay where they are and the body moves the data by its own transfer (the step module). So
  neither array is the launch's to account for; both are handed to the body's invariant and taken back from it:

    before the point — the argument array at its launch contents `x`, the result array at its launch contents,
                       the completion cell at zero;
    after the point  — the argument array at `x`, the result array at `x`, the cell at zero.

  `run_main`: for any float values, from any memory with zero counters, every weakly fair execution of the
  program terminates without a fault, and in every final state the result array holds the argument array's launch
  contents while the argument array is unchanged (`final_result`, `final_argument`).
-/
import proofs.«114075_j61933428409434_2_alg».proof.Proof.IdealCopyStep
import Idealize.ShloMosaic.Lib.Pipeline.Routed
import proofs.«114075_j61933428409434_2_alg».proof.Proof.Gen.KernelIdeal.Frame
import proofs.«114075_j61933428409434_2_alg».proof.Proof.Gen.KernelIdeal.Points

noncomputable section

namespace Cert.KernelIdeal.Copy

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Ends RoutedPost routed)

variable {F : FTy → Type} [FloatOps F]

local notation "𝕄" => MT nD τ sig Unit (Elt F) ℕ UC ℕ

variable (m : (ℓ : Loc nD τ sig) → Buf (Elt F) ℓ) (ρ : Dev nD → PrngReg)

/-! ## What the two arrays hold, before and after -/

/-- The arrays the body's invariant carries: the transfer's source and its target. -/
abbrev moved : Finset (Ref sig .tc) := {main_arg0, main_v0}

/-- The contents after the run: as launched, except that the result array holds the argument array's contents. -/
def Y (c : Dev nD) : (b : Ref sig .tc) → Buf (Elt F) ((c : Thread nD τ).loc b) :=
  Function.update (V m c) main_v0 (V m c main_arg0 : Buf (Elt F) ((c : Thread nD τ).loc main_v0))

theorem Y_result (c : Dev nD) : Y m c main_v0 = (V m c main_arg0 : Buf (Elt F) ((c : Thread nD τ).loc main_v0)) :=
  Function.update_self ..

theorem Y_argument (c : Dev nD) : Y m c main_arg0 = V m c main_arg0 :=
  Function.update_of_ne (by decide) ..

/-! ## The invariant's two ends, written out -/

omit [FloatOps F] in
/-- The kernel's one cell at zero. -/
theorem ownSems0_eq (c : Dev nD) :
    (Pipeline.ownSems0 (Ix := Unit) (Name := ℕ) (U := UC) (Lvl := ℕ) (Val := Elt F) (τ := τ) osem c : sProp 𝕄)
      = semVal ((c : Thread nD τ), SemLoc.dma (0 : DmaSem sig)) 0 :=
  Pipeline.ownSems0_eq_of_list c osem [0] (by decide) (by decide)

/-- An end of the invariant at contents `W`: the two arrays whole at `W`, the cell at zero, no scratch buffer, the
    generator register at some state. -/
theorem ends_eq (c : Dev nD) (W : (b : Ref sig .tc) → Buf (Elt F) ((c : Thread nD τ).loc b)) :
    (Ends cfg0.spec osem moved c W : sProp 𝕄)
      = iprop((pt c (Memref.whole main_arg0) (W main_arg0) ∗ pt c (Memref.whole main_v0) (W main_v0))
          ∗ semVal ((c : Thread nD τ), SemLoc.dma (0 : DmaSem sig)) 0 ∗ emp ∗ ∃ r, prngReg c r) := by
  unfold Ends routed
  rw [BI.bigSep_eq_bigSepL_of_eq [main_arg0, main_v0] (by decide) (by decide), ownSems0_eq, scopedRest0_eq]
  rfl

/-! ## The proof data and the body at the point -/

/-- No window: nothing staged. The invariant is its entry end before the point and its exit end after it. -/
def dats (_ : Fin 1) (c : Dev nD) : Dat τ (Elt F) Unit ℕ UC ℕ cfg0 c where
  A w := w.elim0
  after w := w.elim0
  Φ t := match t with
    | ⟨0, _⟩ => Ends cfg0.spec osem moved c (V m c)
    | ⟨_ + 1, _⟩ => Ends cfg0.spec osem moved c (Y m c)
  q _ := fullShare
  owed _ := 0

abbrev 𝒱₀ : Variants := Variants.none

/-- What the core owes as the launch wants it back, from what the body's run returns: nothing was taken on. -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The body at the point: the entry end taken apart, the step run, its post put together as the exit end. (The
    trailing `emp` on either side is the product over the windows' staging buffers: there is no window.) -/
theorem sound_body (c : Dev nD) :
    iprop((dats m 0 c).Φ t0_0.castSucc ∗ (dats m 0 c).owesAt () t0_0.castSucc ∗ emp)
      ⊢ wp frame (wpE (defs₀ (F := F)) Variants.none c none) Set.univ (body (F := F))
          (fun _ => iprop((dats m 0 c).Φ t0_0.succ ∗ (dats m 0 c).owesAt () t0_0.succ ∗ emp)) := by
  rw [show (dats m 0 c).Φ t0_0.castSucc = Ends cfg0.spec osem moved c (V m c) from rfl,
    show (dats m 0 c).Φ t0_0.succ = Ends cfg0.spec osem moved c (Y m c) from rfl, ends_eq, ends_eq, Y_result, Y_argument]
  unfold Dat.owesAt Pipeline.owesWithin
  rw [show (dats m 0 c).owed t0_0.castSucc = 0 from rfl]
  iintro ⟨⟨⟨Hx, Hv⟩, Hs, -, Hp⟩, ⟨%W, %hW, HO⟩, -⟩
  iapply (copy_step c (V m c main_arg0) (V m c main_v0) W)
  isplitl [Hx]; · iexact Hx
  isplitl [Hv]; · iexact Hv
  isplitl [Hs]; · iexact Hs
  isplitl [HO]; · iexact HO
  iintro ⟨Hx, Hv, Hs, HO⟩
  isplitl [Hx Hv Hs Hp]
  · isplitl [Hx Hv]
    · isplitl [Hx] <;> iassumption
    isplitl [Hs]; · iexact Hs
    isplitr; · iempintro
    iexact Hp
  isplitl [HO]; · iapply (owesAt_intro m c); iexact HO
  iempintro

/-- The launch's obligation for the body, at the grid's one point. There is no window, so the two products over
    the windows' staging buffers are empty and the obligation is the step's. -/
theorem body_obligation (c : Dev nD) : BodyObligation (dats (F := F) m 0 c) (defs₀ (F := F)) 𝒱₀ () Set.univ := fun t => by
  obtain rfl := fin_N0 t
  have hw : (Finset.univ : Finset (Fin cfg0.W)) = ∅ := rfl
  rw [hw, BI.bigSep_empty, BI.bigSep_empty]
  exact sound_body m c

/-! ## The launch -/

/-- The kernel's own cell is scoped to the kernel, and it is no staging cell (there is none). -/
theorem ownSemFacts : Pipeline.OwnSemFacts cfg0.spec osem := by decide

/-- At the compiled mesh, for any float values, from any memory with zero counters: every weakly fair execution of
    the program terminates, and every final state has the two arrays at `Y`. -/
theorem run_main : θ_run defs (onTc (τ := τ) (main (F := F))) (s₀ m ρ) (RoutedPost cfgs (dats m) 0 moved (V m) (Y m)) :=
  Pipeline.θ_run_frame_routed cfgs (dats m) 0 launch0 ownSemFacts defs₀ 𝒱₀ m ρ main
    (hbody := fun c => (body_obligation m c).loose) (hshare := fun _ w => w.elim0)
    (howed := fun _ _ => rfl) (V := V m)
    (hmain := Pipeline.hmain_region cfgs 0 defs₀ 𝒱₀ m main fun c => (main_chain c).trans rfl)
    (hA := fun _ w => w.elim0) (R := moved) (hR := by decide) (Y := Y m) (hin := fun _ => .rfl) (hout := fun _ => .rfl)

/-! ## The final contents, read off the post -/

variable {m ρ}

/-- After the run the result array holds what the argument array held at the launch. -/
theorem final_result {r : PUnit × MemSt nD τ sig (Elt F)} (h : RoutedPost cfgs (dats m) 0 moved (V m) (Y m) r) (c : Dev nD) :
    r.2.mem ((c : Thread nD τ).loc main_v0) = (m ((c : Thread nD τ).loc main_arg0) : Buf (Elt F) ((c : Thread nD τ).loc main_v0)) :=
  ((h c).2.1 main_v0 (by decide)).trans (Y_result m c)

/-- After the run the argument array is as launched. -/
theorem final_argument {r : PUnit × MemSt nD τ sig (Elt F)} (h : RoutedPost cfgs (dats m) 0 moved (V m) (Y m) r) (c : Dev nD) :
    r.2.mem ((c : Thread nD τ).loc main_arg0) = m ((c : Thread nD τ).loc main_arg0) :=
  ((h c).2.1 main_arg0 (by decide)).trans (Y_argument m c)

end Cert.KernelIdeal.Copy

end
-- ==== Proof.EyeProduct.lean ====
/-
  The reference's result at an index. The reference multiplies the argument `x`, a matrix of 8192 rows and 4096
  columns, by the 4096 × 4096 identity matrix, which it builds as the comparison of a row counter (plus zero) with a
  column counter, the truth value then turned into a number: entry (k, j) is 1 when k = j and 0 otherwise.

  Read on the extended reals the product's entry (r, j) is the sum over k of x(r, k) · [k = j]. Every term with
  k ≠ j is x(r, k) · 0 = 0 — also when x(r, k) is infinite, since zero times anything is zero there — and the one
  term with k = j is x(r, j) · 1 = x(r, j). So the product IS `x`, entry for entry, for every `x` whatever:
  no finiteness is used.
-/
import proofs.«114075_j61933428409434_2_alg».proof.Proof.Gen.ReferenceIdeal.Read
import Idealize.ShloMosaic.Lib.ValueIdx
import Idealize.ShloMosaic.PureOps.Ideal.Laws

noncomputable section

namespace Cert.ReferenceIdeal.EyeProduct

open Cert.ReferenceIdeal Cert.ReferenceIdeal.Gen Cert.ReferenceIdeal.Read
open Idealize.ShloMosaic

/-- Two counters below 4096, as 32-bit words, are the same word exactly when they are the same number. -/
theorem word_eq_iff {a b : Nat} (ha : a < 4096) (hb : b < 4096) : (BitVec.ofNat 32 a == BitVec.ofNat 32 b) = decide (a = b) := by
  by_cases h : a = b
  · subst h; simp
  · rw [decide_eq_false h, beq_eq_false_iff_ne]
    intro e
    have e' := congrArg BitVec.toNat e
    rw [BitVec.toNat_ofNat, BitVec.toNat_ofNat, Nat.mod_eq_of_lt (by omega), Nat.mod_eq_of_lt (by omega)] at e'
    exact h e'

/-- The identity matrix the reference builds, at the entry the product reads for row-and-column `i` and summation
    index `k`: 1 when `k` is `i`'s column, 0 otherwise. -/
theorem eye_entry (i : S8192x4096.Idx) (k : Fin 4096) :
    val_main_v5 (F := Ideal) (ridx_main_v6 i k) = if k.val = (i 1).val then (1 : EReal) else 0 := by
  have hi : (i 1).val < 4096 := (i 1).isLt
  rw [val_main_v5_apply, val_main_v4_apply, val_main_v3_apply, val_main_v0_apply, val_main_v2_apply, val_main_c_apply,
    val_main_v1_apply]
  show (((IntOp.cmpi .eq (IntOp.addi (BitVec.ofNat 32 k.val) 0#32) (BitVec.ofNat 32 (i 1).val)).toNat : ℝ) : EReal) = _
  unfold IntOp.cmpi IntOp.addi
  rw [BitVec.add_zero, word_eq_iff k.isLt hi]
  by_cases h : k.val = (i 1).val
  · rw [if_pos h, decide_eq_true h]; simp
  · rw [if_neg h, decide_eq_false h]; simp

/-- The product of `x` with that identity matrix is `x`: of the 4096 terms of each entry's sum only the one on the
    diagonal is not zero, and it is the entry of `x` itself. -/
theorem product_eq_self (x : (⟨S8192x4096, .f32⟩ : BufTy).Contents (Elt Ideal)) : val_main_v6 (F := Ideal) x = x := by
  funext i
  have hi : (i 1).val < 4096 := (i 1).isLt
  rw [val_main_v6_apply, Finset.sum_eq_single (⟨(i 1).val, hi⟩ : Fin 4096)]
  · rw [eye_entry, if_pos rfl, mul_one]
    congr 1
    funext a
    match a with
    | ⟨0, _⟩ => rfl
    | ⟨1, _⟩ => rfl
  · intro k _ hk
    rw [eye_entry, if_neg (fun e => hk (Fin.ext e)), mul_zero]
  · intro h
    exact absurd (Finset.mem_univ _) h

end Cert.ReferenceIdeal.EyeProduct

end
-- ==== Proof.lean ====
/-
  The kernel copies its argument `x`, 8192 rows of 4096 numbers, into its result by one whole-array transfer; the
  reference multiplies `x` by the 4096 × 4096 identity matrix. The claim: the kernel as printed and the kernel read
  over the extended reals each run to the end without a fault and leave `x` unchanged, so does the reference, and
  the two idealized programs end with equal results.

  * The kernel's run (at the word level and over the extended reals alike — the proof does not look inside a
    number): the body's one transfer and its wait leave the result array holding exactly what the argument array
    holds, and the argument array as it was (Proof/WordCopyStep, WordCopyRun; Proof/IdealCopyStep, IdealCopyRun).
  * The reference's result, entry (r, j), is the sum over k of x(r, k) · [k = j]: every off-diagonal term is zero —
    zero times anything, infinite or not, is zero on the extended reals — and the diagonal term is x(r, j)
    (Proof/EyeProduct). So the product is `x` for EVERY `x`; the inputs' finiteness is not used.
  * The idealization rewrote no operation of the kernel, so there is nothing to preserve.
-/
import proofs.«114075_j61933428409434_2_alg».proof.Defs
import proofs.«114075_j61933428409434_2_alg».proof.Proof.Gen.Kernel
import proofs.«114075_j61933428409434_2_alg».proof.Proof.Gen.KernelIdeal
import proofs.«114075_j61933428409434_2_alg».proof.Proof.Gen.ReferenceIdeal
import proofs.«114075_j61933428409434_2_alg».proof.Proof.Gen.Pre_finite_inputs
import proofs.«114075_j61933428409434_2_alg».proof.Proof.Gen.ReferenceIdeal.Run
import proofs.«114075_j61933428409434_2_alg».proof.Proof.Gen.ReferenceIdeal.Read
import proofs.«114075_j61933428409434_2_alg».proof.Proof.WordCopyRun
import proofs.«114075_j61933428409434_2_alg».proof.Proof.IdealCopyRun
import proofs.«114075_j61933428409434_2_alg».proof.Proof.EyeProduct
import Idealize.ShloMosaic.Adequacy
import Idealize.ShloMosaic.Init

noncomputable section

namespace Cert.Proof

open Idealize.ShloMosaic Idealize.ShloMosaic.TcCoe Idealize.SL.Sem

/-- The kernel as printed runs to the end and leaves its argument unchanged. -/
theorem frame_kernel : Cert.frame_Kernel := fun m ρ _ =>
  (θ_run Cert.Kernel.defs _ _).mono (fun _ h c => Cert.Kernel.Copy.final_argument h c) (Cert.Kernel.Copy.run_main (F := Bits) m ρ)

/-- So does the kernel read over the extended reals. -/
theorem frame_kernel_ideal : Cert.frame_KernelIdeal := fun m ρ _ =>
  (θ_run Cert.KernelIdeal.defs _ _).mono (fun _ h c => Cert.KernelIdeal.Copy.final_argument h c)
    (Cert.KernelIdeal.Copy.run_main (F := Ideal) m ρ)

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both idealized programs end with the argument's contents as their result: the kernel because it copied them, the
    reference because multiplying by the identity matrix changes nothing. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0), ?_, ?_⟩
  · exact (θ_run Cert.KernelIdeal.defs _ _).mono
      (fun _ h c => ⟨Cert.KernelIdeal.Copy.final_result h c, Cert.KernelIdeal.Copy.final_argument h c⟩)
      (Cert.KernelIdeal.Copy.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.EyeProduct.product_eq_self, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
